-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x18 : Shape := ⟨2, ![200000, 18]⟩
abbrev S6400000 : Shape := ⟨1, ![6400000]⟩
abbrev S18x18 : Shape := ⟨2, ![18, 18]⟩
abbrev S18 : Shape := ⟨1, ![18]⟩
abbrev S36x2 : Shape := ⟨2, ![36, 2]⟩
abbrev S2 : Shape := ⟨1, ![2]⟩
abbrev S_ : Shape := ⟨0, ![]⟩

class Facts : Prop where
  bcast_S_S200000x18 : S_.BroadcastsInDim S200000x18 (![] : Fin 0 → Fin S200000x18.rank)
  reducesTo_S200000x18_S_d0_1 : S200000x18.ReducesTo [0, 1] S_
  h_S_ : 0 < S_.numel
  bcast_S_S18x18 : S_.BroadcastsInDim S18x18 (![] : Fin 0 → Fin S18x18.rank)
  reducesTo_S18x18_S_d0_1 : S18x18.ReducesTo [0, 1] S_
  bcast_S_S18 : S_.BroadcastsInDim S18 (![] : Fin 0 → Fin S18.rank)
  reducesTo_S18_S_d0 : S18.ReducesTo [0] S_
  bcast_S_S36x2 : S_.BroadcastsInDim S36x2 (![] : Fin 0 → Fin S36x2.rank)
  reducesTo_S36x2_S_d0_1 : S36x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S18 .f32) (main_arg7 : FVec F S36x2 .f32) (main_arg8 : FVec F S2 .f32) (main_v13 : IVec S_ 1) (main_v16 : IVec S18x18 1) : IVec S_ 1 :=
  let main_c_5 : IVec S_ 1 := constantI S_ 1 1#1
  let main_v17 : IVec S_ 1 := (fun x v => Host.reduce IntOp.andi x v reducesTo_S18x18_S_d0_1 h_S_) main_v16 main_c_5
  let main_v18 : IVec S_ 1 := andi main_v13 main_v17
  let main_v19 : FVec F S18 .f32 := Host.absf main_arg6
  let main_cst_6 : FVec F S_ .f32 := constant S_ .f32 0x7F800000#32
  let main_v20 : FVec F S18 .f32 := broadcastInDim S18 ![] bcast_S_S18 main_cst_6
  let main_v21 : IVec S18 1 := cmpf .olt main_v19 main_v20
  let main_c_7 : IVec S_ 1 := constantI S_ 1 1#1
  let main_v22 : IVec S_ 1 := (fun x v => Host.reduce IntOp.andi x v reducesTo_S18_S_d0 h_S_) main_v21 main_c_7
  let main_v23 : IVec S_ 1 := andi main_v18 main_v22
  let main_v24 : FVec F S36x2 .f32 := Host.absf main_arg7
  let main_cst_8 : FVec F S_ .f32 := constant S_ .f32 0x7F800000#32
  let main_v25 : FVec F S36x2 .f32 := broadcastInDim S36x2 ![] bcast_S_S36x2 main_cst_8
  let main_v26 : IVec S36x2 1 := cmpf .olt main_v24 main_v25
  let main_c_9 : IVec S_ 1 := constantI S_ 1 1#1
  let main_v27 : IVec S_ 1 := (fun x v => Host.reduce IntOp.andi x v reducesTo_S36x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S200000x18 .f32) (main_arg1 : IVec S6400000 32) (main_arg2 : IVec S6400000 32) (main_arg3 : FVec F S18x18 .f32) (main_arg4 : FVec F S18 .f32) (main_arg5 : FVec F S18x18 .f32) (main_arg6 : FVec F S18 .f32) (main_arg7 : FVec F S36x2 .f32) (main_arg8 : FVec F S2 .f32) : IVec S_ 1 :=
  let main_v0 : FVec F S200000x18 .f32 := Host.absf main_arg0
  let main_cst : FVec F S_ .f32 := constant S_ .f32 0x7F800000#32
  let main_v1 : FVec F S200000x18 .f32 := broadcastInDim S200000x18 ![] bcast_S_S200000x18 main_cst
  let main_v2 : IVec S200000x18 1 := cmpf .olt main_v0 main_v1
  let main_c : IVec S_ 1 := constantI S_ 1 1#1
  let main_v3 : IVec S_ 1 := (fun x v => Host.reduce IntOp.andi x v reducesTo_S200000x18_S_d0_1 h_S_) main_v2 main_c
  let main_v4 : FVec F S18x18 .f32 := Host.absf main_arg3
  let main_cst_0 : FVec F S_ .f32 := constant S_ .f32 0x7F800000#32
  let main_v5 : FVec F S18x18 .f32 := broadcastInDim S18x18 ![] bcast_S_S18x18 main_cst_0
  let main_v6 : IVec S18x18 1 := cmpf .olt main_v4 main_v5
  let main_c_1 : IVec S_ 1 := constantI S_ 1 1#1
  let main_v7 : IVec S_ 1 := (fun x v => Host.reduce IntOp.andi x v reducesTo_S18x18_S_d0_1 h_S_) main_v6 main_c_1
  let main_v8 : IVec S_ 1 := andi main_v3 main_v7
  let main_v9 : FVec F S18 .f32 := Host.absf main_arg4
  let main_cst_2 : FVec F S_ .f32 := constant S_ .f32 0x7F800000#32
  let main_v10 : FVec F S18 .f32 := broadcastInDim S18 ![] bcast_S_S18 main_cst_2
  let main_v11 : IVec S18 1 := cmpf .olt main_v9 main_v10
  let main_c_3 : IVec S_ 1 := constantI S_ 1 1#1
  let main_v12 : IVec S_ 1 := (fun x v => Host.reduce IntOp.andi x v reducesTo_S18_S_d0 h_S_) main_v11 main_c_3
  let main_v13 : IVec S_ 1 := andi main_v8 main_v12
  let main_v14 : FVec F S18x18 .f32 := Host.absf main_arg5
  let main_cst_4 : FVec F S_ .f32 := constant S_ .f32 0x7F800000#32
  let main_v15 : FVec F S18x18 .f32 := broadcastInDim S18x18 ![] bcast_S_S18x18 main_cst_4
  let main_v16 : IVec S18x18 1 := cmpf .olt main_v14 main_v15
  fn_part1 (F := F) main_arg6 main_arg7 main_arg8 main_v13 main_v16
-- ==== Kernel.lean ====
abbrev S200000x18 : Shape := ⟨2, ![200000, 18]⟩
abbrev S6400000 : Shape := ⟨1, ![6400000]⟩
abbrev S18x18 : Shape := ⟨2, ![18, 18]⟩
abbrev S18 : Shape := ⟨1, ![18]⟩
abbrev S36x2 : Shape := ⟨2, ![36, 2]⟩
abbrev S2 : Shape := ⟨1, ![2]⟩
abbrev S_ : Shape := ⟨0, ![]⟩
abbrev S200000 : Shape := ⟨1, ![200000]⟩
abbrev S6400000x1 : Shape := ⟨2, ![6400000, 1]⟩
abbrev S200000x1 : Shape := ⟨2, ![200000, 1]⟩
abbrev S8000x18 : Shape := ⟨2, ![8000, 18]⟩
abbrev S8000x1 : Shape := ⟨2, ![8000, 1]⟩
abbrev S6400000x18 : Shape := ⟨2, ![6400000, 18]⟩
abbrev S200000x2 : Shape := ⟨2, ![200000, 2]⟩
abbrev S5000x18 : Shape := ⟨2, ![5000, 18]⟩
abbrev S5000x1 : Shape := ⟨2, ![5000, 1]⟩
abbrev S5000x2 : Shape := ⟨2, ![5000, 2]⟩
abbrev S1x18 : Shape := ⟨2, ![1, 18]⟩
abbrev S5000x36 : Shape := ⟨2, ![5000, 36]⟩
abbrev S1x2 : Shape := ⟨2, ![1, 2]⟩

abbrev nBuf : Space → Nat
  | .hbm => 46
  | .vmem => 20
  | .smem => 0
  | _ => 0

abbrev bufTy : (tb : Table) → Fin (tcTables nBuf tb) → BufTy
  | .hbm, ⟨0, _⟩ => ⟨S200000x18, .f32⟩
  | .hbm, ⟨1, _⟩ => ⟨S6400000, .i32⟩
  | .hbm, ⟨2, _⟩ => ⟨S6400000, .i32⟩
  | .hbm, ⟨3, _⟩ => ⟨S18x18, .f32⟩
  | .hbm, ⟨4, _⟩ => ⟨S18, .f32⟩
  | .hbm, ⟨5, _⟩ => ⟨S18x18, .f32⟩
  | .hbm, ⟨6, _⟩ => ⟨S18, .f32⟩
  | .hbm, ⟨7, _⟩ => ⟨S36x2, .f32⟩
  | .hbm, ⟨8, _⟩ => ⟨S2, .f32⟩
  | .hbm, ⟨9, _⟩ => ⟨S_, .f32⟩
  | .hbm, ⟨10, _⟩ => ⟨S6400000, .f32⟩
  | .hbm, ⟨11, _⟩ => ⟨S_, .f32⟩
  | .hbm, ⟨12, _⟩ => ⟨S200000, .f32⟩
  | .hbm, ⟨13, _⟩ => ⟨S6400000x1, .i32⟩
  | .hbm, ⟨14, _⟩ => ⟨S200000, .f32⟩
  | .hbm, ⟨15, _⟩ => ⟨S_, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S6400000x1, .i32⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000, .f32⟩
  | .hbm, ⟨28, _⟩ => ⟨S200000x1, .f32⟩
  | .hbm, ⟨29, _⟩ => ⟨S200000, .f32⟩
  | .hbm, ⟨30, _⟩ => ⟨S200000x1, .f32⟩
  | .hbm, ⟨31, _⟩ => ⟨S200000x18, .f32⟩
  | .hbm, ⟨32, _⟩ => ⟨S_, .i32⟩
  | .hbm, ⟨33, _⟩ => ⟨S6400000, .i32⟩
  | .hbm, ⟨34, _⟩ => ⟨S6400000, .i1⟩
  | .hbm, ⟨35, _⟩ => ⟨S_, .i32⟩
  | .hbm, ⟨36, _⟩ => ⟨S6400000, .i32⟩
  | .hbm, ⟨37, _⟩ => ⟨S6400000, .i32⟩
  | .hbm, ⟨38, _⟩ => ⟨S6400000, .i32⟩
  | .hbm, ⟨39, _⟩ => ⟨S6400000x1, .i32⟩
  | .hbm, ⟨40, _⟩ => ⟨S6400000x18, .f32⟩
  | .hbm, ⟨41, _⟩ => ⟨S_, .f32⟩
  | .hbm, ⟨42, _⟩ => ⟨S200000x18, .f32⟩
  | .hbm, ⟨43, _⟩ => ⟨S6400000x1, .i32⟩
  | .hbm, ⟨44, _⟩ => ⟨S200000x18, .f32⟩
  | .hbm, ⟨45, _⟩ => ⟨S200000x2, .f32⟩
  | .local _ .vmem, ⟨0, _⟩ => ⟨S8000x18, .f32⟩
  | .local _ .vmem, ⟨1, _⟩ => ⟨S8000x18, .f32⟩
  | .local _ .vmem, ⟨2, _⟩ => ⟨S8000x1, .f32⟩
  | .local _ .vmem, ⟨3, _⟩ => ⟨S8000x1, .f32⟩
  | .local _ .vmem, ⟨4, _⟩ => ⟨S18x18, .f32⟩
  | .local _ .vmem, ⟨5, _⟩ => ⟨S8000x18, .f32⟩
  | .local _ .vmem, ⟨6, _⟩ => ⟨S8000x18, .f32⟩
  | .local _ .vmem, ⟨7, _⟩ => ⟨S5000x18, .f32⟩
  | .local _ .vmem, ⟨8, _⟩ => ⟨S5000x18, .f32⟩
  | .local _ .vmem, ⟨9, _⟩ => ⟨S5000x18, .f32⟩
  | .local _ .vmem, ⟨10, _⟩ => ⟨S5000x18, .f32⟩
  | .local _ .vmem, ⟨11, _⟩ => ⟨S5000x1, .f32⟩
  | .local _ .vmem, ⟨12, _⟩ => ⟨S5000x1, .f32⟩
  | .local _ .vmem, ⟨13, _⟩ => ⟨S18, .f32⟩
  | .local _ .vmem, ⟨14, _⟩ => ⟨S18x18, .f32⟩
  | .local _ .vmem, ⟨15, _⟩ => ⟨S18, .f32⟩
  | .local _ .vmem, ⟨16, _⟩ => ⟨S36x2, .f32⟩
  | .local _ .vmem, ⟨17, _⟩ => ⟨S2, .f32⟩
  | .local _ .vmem, ⟨18, _⟩ => ⟨S5000x2, .f32⟩
  | .local _ .vmem, ⟨19, _⟩ => ⟨S5000x2, .f32⟩
  | _, _ => ⟨S200000x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S18x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x18 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x18 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x18 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S18 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S18x18 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S18 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S36x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S200000_S200000x1_0 : S200000.BroadcastsInDim S200000x1 (![0] : Fin 1 → Fin S200000x1.rank)
  inb_S8000x18_S8000x18_0_0 : ∀ a, (![0, 0] : Fin 2 → Nat) a + S8000x18.size a ≤ S8000x18.size a
  h_S8000x18 : 0 < S8000x18.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x18 : S8000x1.Broadcasts S8000x18
  bitsLt_bf16_f32 : FTy.bits .bf16 < FTy.bits .f32
  inb_S18x18_S18x18_0_0 : ∀ a, (![0, 0] : Fin 2 → Nat) a + S18x18.size a ≤ S18x18.size a
  h_S18x18 : 0 < S18x18.numel
  bcast_S_S200000x18 : S_.BroadcastsInDim S200000x18 (![] : Fin 0 → Fin S200000x18.rank)
  inb_S5000x18_S5000x18_0_0 : ∀ a, (![0, 0] : Fin 2 → Nat) a + S5000x18.size a ≤ S5000x18.size a
  h_S5000x18 : 0 < S5000x18.numel
  shapeCasts_S5000x18_S5000x18 : S5000x18.ShapeCasts S5000x18
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x18 : S5000x1.Broadcasts S5000x18
  inb_S18_S18_0 : ∀ a, (![0] : Fin 1 → Nat) a + S18.size a ≤ S18.size a
  h_S18 : 0 < S18.numel
  shapeCasts_S18_S1x18 : S18.ShapeCasts S1x18
  broadcasts_S1x18_S5000x18 : S1x18.Broadcasts S5000x18
  concatenates_S5000x18_S5000x18_S5000x36_d1 : Shape.Concatenates [S5000x18, S5000x18] S5000x36 1
  inb_S36x2_S36x2_0_0 : ∀ a, (![0, 0] : Fin 2 → Nat) a + S36x2.size a ≤ S36x2.size a
  h_S36x2 : 0 < S36x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S200000_S6400000x1_S6400000_n_0_0_1_wf : ScatterDims.WF S200000 S6400000x1 S6400000 [] [0] [0] 1
  dot_S8000x18_S18x18_S8000x18_1_0_0_1_n_n_wf : DotDims.WF S8000x18 S18x18 S8000x18 [1] [0] [0] [1] [] []
  gather_S200000x18_S6400000x1_S6400000x18_1_0_n_n_0_1_118_wf : GatherDims.WF S200000x18 S6400000x1 S6400000x18 [1] [0] [] [0] [] 1 ![1, 18]
  scatter_S200000x18_S6400000x1_S6400000x18_1_0_0_1_wf : ScatterDims.WF S200000x18 S6400000x1 S6400000x18 [1] [0] [0] 1
  dot_S5000x18_S18x18_S5000x18_1_0_0_1_n_n_wf : DotDims.WF S5000x18 S18x18 S5000x18 [1] [0] [0] [1] [] []
  dot_S5000x36_S36x2_S5000x2_1_0_0_1_n_n_wf : DotDims.WF S5000x36 S36x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x18.size a ≤ S200000x18.size a
  hwx0_0 : ∀ i : grid0.Coords, EltTy.bits .f32 = 32 ∨ (Rect.block (s := S200000x18) S8000x18.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S200000x1.size a
  hwx0_1 : ∀ i : grid0.Coords, EltTy.bits .f32 = 32 ∨ (Rect.block (s := S200000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S18x18.size a ≤ S18x18.size a
  hwx0_2 : ∀ i : grid0.Coords, EltTy.bits .f32 = 32 ∨ (Rect.block (s := S18x18) S18x18.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x18.size a ≤ S200000x18.size a
  hwx0_3 : ∀ i : grid0.Coords, EltTy.bits .f32 = 32 ∨ (Rect.block (s := S200000x18) S8000x18.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x18.size a ≤ S200000x18.size a
  hwx1_0 : ∀ i : grid1.Coords, EltTy.bits .f32 = 32 ∨ (Rect.block (s := S200000x18) S5000x18.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x18.size a ≤ S200000x18.size a
  hwx1_1 : ∀ i : grid1.Coords, EltTy.bits .f32 = 32 ∨ (Rect.block (s := S200000x18) S5000x18.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S18.size a ≤ S18.size a
  hwx1_3 : ∀ i : grid1.Coords, EltTy.bits .f32 = 32 ∨ (Rect.block (s := S18) S18.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S18x18.size a ≤ S18x18.size a
  hwx1_4 : ∀ i : grid1.Coords, EltTy.bits .f32 = 32 ∨ (Rect.block (s := S18x18) S18x18.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S18.size a ≤ S18.size a
  hwx1_5 : ∀ i : grid1.Coords, EltTy.bits .f32 = 32 ∨ (Rect.block (s := S18) S18.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S36x2.size a ≤ S36x2.size a
  hwx1_6 : ∀ i : grid1.Coords, EltTy.bits .f32 = 32 ∨ (Rect.block (s := S36x2) S36x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2.size a ≤ S2.size a
  hwx1_7 : ∀ i : grid1.Coords, EltTy.bits .f32 = 32 ∨ (Rect.block (s := S2) S2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x2.size a ≤ S200000x2.size a
  hwx1_8 : ∀ i : grid1.Coords, EltTy.bits .f32 = 32 ∨ (Rect.block (s := S200000x2) S5000x2.size (cc1_transform_8 i) (hinb1_8 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S8000x18_S18x18_S8000x18_1_0_0_1_n_n : DotDims S8000x18 S18x18 S8000x18 where
  lhsContracting := [1]
  rhsContracting := [0]
  lhsNonContracting := [0]
  rhsNonContracting := [1]
  lhsBatch := []
  rhsBatch := []
  wf := dot_S8000x18_S18x18_S8000x18_1_0_0_1_n_n_wf
def gather_S200000x18_S6400000x1_S6400000x18_1_0_n_n_0_1_118 : GatherDims S200000x18 S6400000x1 S6400000x18 where
  offsetDims := [1]
  collapsedSliceDims := [0]
  operandBatchingDims := []
  startIndicesBatchingDims := []
  startIndexMap := [0]
  indexVectorDim := 1
  sliceSizes := ![1, 18]
  wf := gather_S200000x18_S6400000x1_S6400000x18_1_0_n_n_0_1_118_wf
def scatter_S200000x18_S6400000x1_S6400000x18_1_0_0_1 : ScatterDims S200000x18 S6400000x1 S6400000x18 where
  updateWindowDims := [1]
  insertedWindowDims := [0]
  scatterDimsToOperandDims := [0]
  indexVectorDim := 1
  wf := scatter_S200000x18_S6400000x1_S6400000x18_1_0_0_1_wf
def dot_S5000x18_S18x18_S5000x18_1_0_0_1_n_n : DotDims S5000x18 S18x18 S5000x18 where
  lhsContracting := [1]
  rhsContracting := [0]
  lhsNonContracting := [0]
  rhsNonContracting := [1]
  lhsBatch := []
  rhsBatch := []
  wf := dot_S5000x18_S18x18_S5000x18_1_0_0_1_n_n_wf
def dot_S5000x36_S36x2_S5000x2_1_0_0_1_n_n : DotDims S5000x36 S36x2 S5000x2 where
  lhsContracting := [1]
  rhsContracting := [0]
  lhsNonContracting := [0]
  rhsNonContracting := [1]
  lhsBatch := []
  rhsBatch := []
  wf := dot_S5000x36_S36x2_S5000x2_1_0_0_1_n_n_wf

abbrev win0_0 : Pipeline.Window sig grid0 :=
  Pipeline.Window.ofSpec (Memref.whole main_arg0) S8000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S18x18.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8000x18.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x18.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x18.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S18.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S18x18.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S18.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S36x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S5000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S200000x18 : Shape := ⟨2, ![200000, 18]⟩
abbrev S6400000 : Shape := ⟨1, ![6400000]⟩
abbrev S18x18 : Shape := ⟨2, ![18, 18]⟩
abbrev S18 : Shape := ⟨1, ![18]⟩
abbrev S36x2 : Shape := ⟨2, ![36, 2]⟩
abbrev S2 : Shape := ⟨1, ![2]⟩
abbrev S_ : Shape := ⟨0, ![]⟩
abbrev S200000 : Shape := ⟨1, ![200000]⟩
abbrev S6400000x1 : Shape := ⟨2, ![6400000, 1]⟩
abbrev S200000x1 : Shape := ⟨2, ![200000, 1]⟩
abbrev S6400000x18 : Shape := ⟨2, ![6400000, 18]⟩
abbrev S1x18 : Shape := ⟨2, ![1, 18]⟩
abbrev S200000x36 : Shape := ⟨2, ![200000, 36]⟩
abbrev S200000x2 : Shape := ⟨2, ![200000, 2]⟩
abbrev S1x2 : Shape := ⟨2, ![1, 2]⟩

abbrev nBuf : Space → Nat
  | .hbm => 67
  | .vmem => 0
  | .smem => 0
  | _ => 0

abbrev bufTy : (tb : Table) → Fin (tcTables nBuf tb) → BufTy
  | .hbm, ⟨0, _⟩ => ⟨S200000x18, .f32⟩
  | .hbm, ⟨1, _⟩ => ⟨S6400000, .i32⟩
  | .hbm, ⟨2, _⟩ => ⟨S6400000, .i32⟩
  | .hbm, ⟨3, _⟩ => ⟨S18x18, .f32⟩
  | .hbm, ⟨4, _⟩ => ⟨S18, .f32⟩
  | .hbm, ⟨5, _⟩ => ⟨S18x18, .f32⟩
  | .hbm, ⟨6, _⟩ => ⟨S18, .f32⟩
  | .hbm, ⟨7, _⟩ => ⟨S36x2, .f32⟩
  | .hbm, ⟨8, _⟩ => ⟨S2, .f32⟩
  | .hbm, ⟨9, _⟩ => ⟨S_, .f32⟩
  | .hbm, ⟨10, _⟩ => ⟨S6400000, .f32⟩
  | .hbm, ⟨11, _⟩ => ⟨S_, .f32⟩
  | .hbm, ⟨12, _⟩ => ⟨S200000, .f32⟩
  | .hbm, ⟨13, _⟩ => ⟨S6400000x1, .i32⟩
  | .hbm, ⟨14, _⟩ => ⟨S200000, .f32⟩
  | .hbm, ⟨15, _⟩ => ⟨S_, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S6400000x1, .i32⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000, .f32⟩
  | .hbm, ⟨28, _⟩ => ⟨S200000x1, .f32⟩
  | .hbm, ⟨29, _⟩ => ⟨S200000, .f32⟩
  | .hbm, ⟨30, _⟩ => ⟨S200000x1, .f32⟩
  | .hbm, ⟨31, _⟩ => ⟨S200000x18, .f32⟩
  | .hbm, ⟨32, _⟩ => ⟨S200000x18, .f32⟩
  | .hbm, ⟨33, _⟩ => ⟨S200000x18, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000x18, .f32⟩
  | .hbm, ⟨43, _⟩ => ⟨S_, .f32⟩
  | .hbm, ⟨44, _⟩ => ⟨S200000x18, .f32⟩
  | .hbm, ⟨45, _⟩ => ⟨S6400000x1, .i32⟩
  | .hbm, ⟨46, _⟩ => ⟨S200000x18, .f32⟩
  | .hbm, ⟨47, _⟩ => ⟨S200000x18, .f32⟩
  | .hbm, ⟨48, _⟩ => ⟨S200000x18, .f32⟩
  | .hbm, ⟨49, _⟩ => ⟨S1x18, .f32⟩
  | .hbm, ⟨50, _⟩ => ⟨S200000x18, .f32⟩
  | .hbm, ⟨51, _⟩ => ⟨S200000x18, .f32⟩
  | .hbm, ⟨52, _⟩ => ⟨S_, .f32⟩
  | .hbm, ⟨53, _⟩ => ⟨S200000x18, .f32⟩
  | .hbm, ⟨54, _⟩ => ⟨S200000x18, .f32⟩
  | .hbm, ⟨55, _⟩ => ⟨S200000x18, .f32⟩
  | .hbm, ⟨56, _⟩ => ⟨S1x18, .f32⟩
  | .hbm, ⟨57, _⟩ => ⟨S200000x18, .f32⟩
  | .hbm, ⟨58, _⟩ => ⟨S200000x18, .f32⟩
  | .hbm, ⟨59, _⟩ => ⟨S200000x36, .f32⟩
  | .hbm, ⟨60, _⟩ => ⟨S_, .f32⟩
  | .hbm, ⟨61, _⟩ => ⟨S200000x36, .f32⟩
  | .hbm, ⟨62, _⟩ => ⟨S200000x36, .f32⟩
  | .hbm, ⟨63, _⟩ => ⟨S200000x2, .f32⟩
  | .hbm, ⟨64, _⟩ => ⟨S1x2, .f32⟩
  | .hbm, ⟨65, _⟩ => ⟨S200000x2, .f32⟩
  | .hbm, ⟨66, _⟩ => ⟨S200000x2, .f32⟩
  | _, _ => ⟨S200000x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call3_cst : Ref sig .tc := ⟨.hbm, 60, rfl⟩
abbrev main_call3_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S200000_S200000x1_0 : S200000.BroadcastsInDim S200000x1 (![0] : Fin 1 → Fin S200000x1.rank)
  bcast_S200000x1_S200000x18_0_1 : S200000x1.BroadcastsInDim S200000x18 (![0, 1] : Fin 2 → Fin S200000x18.rank)
  bcast_S_S200000x18 : S_.BroadcastsInDim S200000x18 (![] : Fin 0 → Fin S200000x18.rank)
  bcast_S18_S1x18_1 : S18.BroadcastsInDim S1x18 (![1] : Fin 1 → Fin S1x18.rank)
  bcast_S1x18_S200000x18_0_1 : S1x18.BroadcastsInDim S200000x18 (![0, 1] : Fin 2 → Fin S200000x18.rank)
  concatenates_S200000x18_S200000x18_S200000x36_d1 : Shape.Concatenates [S200000x18, S200000x18] S200000x36 1
  bcast_S_S200000x36 : S_.BroadcastsInDim S200000x36 (![] : Fin 0 → Fin S200000x36.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S6400000x1_S6400000_n_0_0_1_wf : ScatterDims.WF S200000 S6400000x1 S6400000 [] [0] [0] 1
  dot_S200000x18_S18x18_S200000x18_1_0_0_1_n_n_wf : DotDims.WF S200000x18 S18x18 S200000x18 [1] [0] [0] [1] [] []
  gather_S200000x18_S6400000x1_S6400000x18_1_0_n_n_0_1_118_wf : GatherDims.WF S200000x18 S6400000x1 S6400000x18 [1] [0] [] [0] [] 1 ![1, 18]
  scatter_S200000x18_S6400000x1_S6400000x18_1_0_0_1_wf : ScatterDims.WF S200000x18 S6400000x1 S6400000x18 [1] [0] [0] 1
  dot_S200000x36_S36x2_S200000x2_1_0_0_1_n_n_wf : DotDims.WF S200000x36 S36x2 S200000x2 [1] [0] [0] [1] [] []

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S200000x18_S18x18_S200000x18_1_0_0_1_n_n : DotDims S200000x18 S18x18 S200000x18 where
  lhsContracting := [1]
  rhsContracting := [0]
  lhsNonContracting := [0]
  rhsNonContracting := [1]
  lhsBatch := []
  rhsBatch := []
  wf := dot_S200000x18_S18x18_S200000x18_1_0_0_1_n_n_wf
def gather_S200000x18_S6400000x1_S6400000x18_1_0_n_n_0_1_118 : GatherDims S200000x18 S6400000x1 S6400000x18 where
  offsetDims := [1]
  collapsedSliceDims := [0]
  operandBatchingDims := []
  startIndicesBatchingDims := []
  startIndexMap := [0]
  indexVectorDim := 1
  sliceSizes := ![1, 18]
  wf := gather_S200000x18_S6400000x1_S6400000x18_1_0_n_n_0_1_118_wf
def scatter_S200000x18_S6400000x1_S6400000x18_1_0_0_1 : ScatterDims S200000x18 S6400000x1 S6400000x18 where
  updateWindowDims := [1]
  insertedWindowDims := [0]
  scatterDimsToOperandDims := [0]
  indexVectorDim := 1
  wf := scatter_S200000x18_S6400000x1_S6400000x18_1_0_0_1_wf
def dot_S200000x36_S36x2_S200000x2_1_0_0_1_n_n : DotDims S200000x36 S36x2 S200000x2 where
  lhsContracting := [1]
  rhsContracting := [0]
  lhsNonContracting := [0]
  rhsNonContracting := [1]
  lhsBatch := []
  rhsBatch := []
  wf := dot_S200000x36_S36x2_S200000x2_1_0_0_1_n_n_wf

class Facts : Prop extends Facts₀ where

variable [Facts]
-- ==== Proof.KernelRun.lean ====
/-
  The kernel program's run, read at EVERY buffer.  @main is eight segments: five stretches of host operations (the
  two degree counts, each clipped from below, their inverse square roots as columns), the first region, one more
  stretch (the edge gather and the sum of the gathered rows into their destination nodes), the second region.  The
  buffer contents at the end of the last segment are `W8`: the fold of the stretches' operations and of the two
  regions' write-backs over the launch memory.  Every weakly fair execution terminates, and its final memory holds
  `W8` at every buffer that outlives the kernels' staging: the launch of the segments, the last thread state read
  against the final state.
-/
import proofs.«101954_j27642409517487_2_alg».proof.Proof.Gen.KernelIdeal.Frame

set_option maxRecDepth 16384

noncomputable section

namespace Cert.GraphConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and its final memory holds `W8` at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by
      simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element IS the pipelines' initial element, and no core takes a ghost resource
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      -- what the launch deals to a core: its unscoped buffers at the launch memory, its generator register, nothing owed
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W8 m ρ c b)
    (hfin := fun c s' => by
      -- the last thread state holds every unscoped buffer at `W8`: read them all against the final state
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.GraphConv

end
-- ==== Proof.Spec.lean ====
/-
  The graph-convolution classifier, entry by entry, on the extended reals.

  Every node `r` carries a feature row `x r` of 18 numbers.  With `s` and `d` the source-side and the
  destination-side normalisation columns (one number per node):

  * the projected features:  `proj (r, j) = Σₖ (x (r, k) · s r) · W (k, j)`;
  * after the edges have been summed into `a` (one row per node), the convolution branch
    `conv (r, g) = max (a (r, g) · d r + b (g), 0)` and the linear branch
    `lin (r, g) = Σₖ x (r, k) · Wl (k, g) + bl (g)`;
  * the two branches side by side, `cat r = [lin r | conv r]` (36 numbers), rectified, through the classifier:
    `out (r, j) = Σₖ max (cat (r, k), 0) · Wc (k, j) + bc (j)`.

  Every entry of `proj` and of `out` reads ONE row of the per-node inputs: that is why the same formulas describe a
  tile of rows and the whole array.  The number of rows `R` is a parameter for that reason.  The zero the maxima are
  taken against is kept as the 32-bit word the programs print.
-/
import Idealize.ShloMosaic.Lib.ValueIdx
import Idealize.ShloMosaic.PureOps.Ideal

noncomputable section

open scoped BigOperators

namespace Cert.GraphConv

open Idealize.ShloMosaic Idealize.ShloMosaic.ValueIdx

/-- A matrix of extended reals with `a` rows and `b` columns, and a vector of `a` of them. -/
abbrev Mat (a b : ℕ) : Type := (⟨2, ![a, b]⟩ : Shape).Idx → EReal
abbrev Vc (a : ℕ) : Type := (⟨1, ![a]⟩ : Shape).Idx → EReal

/-- The zero the programs take their maxima against. -/
abbrev zero : EReal := Ideal.ofBits .f32 0x00000000#32

variable {R : ℕ}

/-- Entry `(r, j)` of the projected, source-normalised features. -/
def projAt (x : Mat R 18) (s : Mat R 1) (w : Mat 18 18) (r : Fin R) (j : Fin 18) : EReal :=
  ∑ k : Fin 18, (x (ix2 r k) * s (ix2 r (0 : Fin 1))) * w (ix2 k j)

/-- The projected features as a matrix. -/
def proj (x : Mat R 18) (s : Mat R 1) (w : Mat 18 18) : Mat R 18 :=
  fun i => projAt x s w ⟨(i 0).val, idx2_lt0 i⟩ ⟨(i 1).val, idx2_lt1 i⟩

theorem proj_ix2 (x : Mat R 18) (s : Mat R 1) (w : Mat 18 18) (r : Fin R) (j : Fin 18) :
    proj x s w (ix2 r j) = projAt x s w r j := rfl

/-- The linear branch at `(r, g)`. -/
def linAt (x : Mat R 18) (wl : Mat 18 18) (bl : Vc 18) (r : Fin R) (g : Fin 18) : EReal :=
  (∑ k : Fin 18, x (ix2 r k) * wl (ix2 k g)) + bl (ix1 g)

/-- The convolution branch at `(r, g)`: the summed messages, destination-normalised, biased, rectified. -/
def convAt (a : Mat R 18) (d : Mat R 1) (b : Vc 18) (r : Fin R) (g : Fin 18) : EReal :=
  max (a (ix2 r g) * d (ix2 r (0 : Fin 1)) + b (ix1 g)) zero

/-- The two branches side by side: columns 0 … 17 the linear branch, 18 … 35 the convolution branch. -/
def catAt (x : Mat R 18) (a : Mat R 18) (d : Mat R 1) (b : Vc 18) (wl : Mat 18 18) (bl : Vc 18) (r : Fin R)
    (k : Fin 36) : EReal :=
  if h : k.val < 18 then linAt x wl bl r ⟨k.val, h⟩ else convAt a d b r ⟨k.val - 18, by omega⟩

/-- Entry `(r, j)` of the result. -/
def outAt (x : Mat R 18) (a : Mat R 18) (d : Mat R 1) (b : Vc 18) (wl : Mat 18 18) (bl : Vc 18) (wc : Mat 36 2)
    (bc : Vc 2) (r : Fin R) (j : Fin 2) : EReal :=
  (∑ k : Fin 36, max (catAt x a d b wl bl r k) zero * wc (ix2 k j)) + bc (ix1 j)

/-- The result as a matrix. -/
def out (x : Mat R 18) (a : Mat R 18) (d : Mat R 1) (b : Vc 18) (wl : Mat 18 18) (bl : Vc 18) (wc : Mat 36 2)
    (bc : Vc 2) : Mat R 2 :=
  fun i => outAt x a d b wl bl wc bc ⟨(i 0).val, idx2_lt0 i⟩ ⟨(i 1).val, idx2_lt1 i⟩

theorem out_ix2 (x : Mat R 18) (a : Mat R 18) (d : Mat R 1) (b : Vc 18) (wl : Mat 18 18) (bl : Vc 18) (wc : Mat 36 2)
    (bc : Vc 2) (r : Fin R) (j : Fin 2) : out x a d b wl bl wc bc (ix2 r j) = outAt x a d b wl bl wc bc r j := rfl

/-- Two matrices that agree at every `(r, j)` are equal. -/
theorem mat_ext {a b : ℕ} {α : Type} (f g : (⟨2, ![a, b]⟩ : Shape).Idx → α) (h : ∀ r j, f (ix2 r j) = g (ix2 r j)) :
    f = g :=
  funext fun i => by rw [eq_ix2 i]; exact h _ _

/-! ## Each entry reads one row -/

variable {R' : ℕ}

/-- An entry of the projected features depends on its node's row of `x` and its node's entry of `s` only. -/
theorem projAt_rows (x : Mat R 18) (s : Mat R 1) (x' : Mat R' 18) (s' : Mat R' 1) (w : Mat 18 18) (r : Fin R)
    (r' : Fin R') (hx : ∀ k, x (ix2 r k) = x' (ix2 r' k)) (hs : s (ix2 r (0 : Fin 1)) = s' (ix2 r' (0 : Fin 1)))
    (j : Fin 18) : projAt x s w r j = projAt x' s' w r' j := by
  unfold projAt
  refine Finset.sum_congr rfl fun k _ => ?_
  rw [hx k, hs]

/-- An entry of the result depends on its node's rows of `x` and `a` and its node's entry of `d` only. -/
theorem outAt_rows (x a : Mat R 18) (d : Mat R 1) (x' a' : Mat R' 18) (d' : Mat R' 1) (b : Vc 18) (wl : Mat 18 18)
    (bl : Vc 18) (wc : Mat 36 2) (bc : Vc 2) (r : Fin R) (r' : Fin R')
    (hx : ∀ k, x (ix2 r k) = x' (ix2 r' k)) (ha : ∀ k, a (ix2 r k) = a' (ix2 r' k))
    (hd : d (ix2 r (0 : Fin 1)) = d' (ix2 r' (0 : Fin 1))) (j : Fin 2) :
    outAt x a d b wl bl wc bc r j = outAt x' a' d' b wl bl wc bc r' j := by
  have hcat : ∀ k, catAt x a d b wl bl r k = catAt x' a' d' b wl bl r' k := fun k => by
    unfold catAt
    split
    · unfold linAt
      refine congrArg (· + _) (Finset.sum_congr rfl fun q _ => ?_)
      rw [hx q]
    · unfold convAt
      rw [ha, hd]
  unfold outAt
  refine congrArg (· + _) (Finset.sum_congr rfl fun k _ => ?_)
  rw [hcat k]

end Cert.GraphConv

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.Stage1Body.lean ====
/-
  What the first kernel's body computes from its three blocks, entry by entry: a tile of 8000 feature rows, each
  multiplied by its node's source normalisation (a column repeated along the 18 features), through the 18 × 18
  weight matrix.  The change of format on the way into the product is the identity on the extended reals, and a
  product into the zero accumulator is the plain sum over the contracted index: the entry is `projAt` of the tile.
-/
import proofs.«101954_j27642409517487_2_alg».proof.Proof.Gen.KernelIdeal.Skeleton
import proofs.«101954_j27642409517487_2_alg».proof.Proof.Spec
import proofs.«101954_j27642409517487_2_alg».proof.Proof.LibPlainMatmul
import proofs.«101954_j27642409517487_2_alg».proof.Proof.LibKeepdims

noncomputable section

open scoped BigOperators

namespace Cert.GraphConv

open Idealize.ShloMosaic Idealize.ShloMosaic.ValueIdx Cert.KernelIdeal Cert.KernelIdeal.Gen

/-- The first kernel's stored tile at `(p, q)` is the projected feature of the tile's row `p`. -/
theorem stage1_at (v0 : Vec Ideal S8000x18 .f32) (v1 : Vec Ideal S8000x1 .f32) (v6 : Vec Ideal S18x18 .f32)
    (p : Fin 8000) (q : Fin 18) :
    k0_pay1 (F := Ideal) v0 v1 v6 (ix2 p q) = projAt (R := 8000) v0 v1 v6 p q := by
  unfold k0_pay1
  refine (Cert.LibPlainMatmul.matmul_zero_apply (a := 8000) (n := 18) (b := 18) none _ _ p q).trans ?_
  unfold projAt
  refine Finset.sum_congr rfl fun k _ => ?_
  refine congrArg (· * v6 (ix2 k q)) ?_
  refine congrArg (v0 (ix2 p k) * ·) ?_
  refine (Cert.LibKeepdims.broadcastTo_a1_ab_apply (a := 8000) (b := 18) _ _ p k).trans ?_
  rw [shapeCast_self]

end Cert.GraphConv

end
-- ==== Proof.Stage1Cover.lean ====
/-
  The first region, as one function of the arrays it finds.  The grid has 25 points; point `t` takes rows
  `8000·t … 8000·t + 7999` of the features and of the normalisation column, the whole weight matrix, and writes the
  same rows of the result.  Since an entry of `proj` reads its own row only, what point `t` writes back is block `t`
  of `proj` of the whole arrays; the 25 blocks tile the 200000 rows, so the array ends holding `proj`.
-/
import proofs.«101954_j27642409517487_2_alg».proof.Proof.Gen.KernelIdeal.Frame
import proofs.«101954_j27642409517487_2_alg».proof.Proof.Stage1Body

set_option maxRecDepth 16384

noncomputable section

open scoped BigOperators

namespace Cert.GraphConv

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A tile entry against the whole arrays: when the tile's blocks are the arrays' rows from `o` on, the body's value
    at `y` is `proj` of the arrays at the index `i` that sits `o` rows further down. -/
theorem tile1_eq (x0 : Vec Ideal S8000x18 .f32) (x1 : Vec Ideal S8000x1 .f32) (x2 : Vec Ideal S18x18 .f32)
    (A0 : Mat 200000 18) (A1 : Mat 200000 1) (A2 : Mat 18 18) (y : S8000x18.Idx) (i : S200000x18.Idx) (o : ℕ)
    (hi0 : (i 0).val = o + (y 0).val) (hi1 : (i 1).val = (y 1).val)
    (h0 : ∀ (y' : S8000x18.Idx) (i' : S200000x18.Idx), (i' 0).val = o + (y' 0).val → (i' 1).val = (y' 1).val →
      x0 y' = A0 i')
    (h1 : ∀ (y' : S8000x1.Idx) (i' : S200000x1.Idx), (i' 0).val = o + (y' 0).val → x1 y' = A1 i')
    (h2 : x2 = A2) :
    k0_pay1 (F := Ideal) x0 x1 x2 y = proj (R := 200000) A0 A1 A2 i := by
  subst h2
  obtain ⟨p, q, rfl⟩ : ∃ (p : Fin 8000) (q : Fin 18), y = ix2 p q := ⟨y 0, y 1, eq_ix2 y⟩
  obtain ⟨r, q', rfl⟩ : ∃ (r : Fin 200000) (q' : Fin 18), i = ix2 r q' := ⟨i 0, i 1, eq_ix2 i⟩
  have hq : q' = q := Fin.ext hi1
  subst hq
  have hr : r.val = o + p.val := hi0
  refine (stage1_at x0 x1 x2 p q').trans ?_
  refine (projAt_rows x0 x1 A0 A1 x2 p r (fun k => h0 (ix2 p k) (ix2 r k) hr rfl) (h1 (ix2 p 0) (ix2 r 0) hr) q').trans ?_
  exact (proj_ix2 A0 A1 x2 r q').symm

variable (V : (c : Dev nD) → (b : Ref sig .tc) → Buf (Elt Ideal) ((c : Thread nD τ).loc b))

theorem zero_off2 : (![0, 0] : Fin 2 → Nat) = fun _ => 0 := funext fun a => by fin_cases a <;> rfl

/-- The printed index maps over the 25 points: the row-tiled windows sit at block row `t`, block column 0; the
    weight matrix at block (0, 0). -/
theorem idx_facts0 : ∀ t : Fin cfg0.N, win0_0.index t (0 : Fin 2) = win0_3.index t (0 : Fin 2)
    ∧ win0_1.index t (0 : Fin 2) = win0_3.index t (0 : Fin 2)
    ∧ win0_0.index t (1 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every block row is some point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

/-- What point `t` writes back is block `t` of `proj` of the arrays as the region finds them. -/
theorem flushed_proj (c : Dev nD) (t : Fin cfg0.N) :
    (dat0 V c).flushed 3 t = ((cfg0.win 3).blk t).view.read (Elt Ideal)
      (proj (R := 200000) (V c main_arg0) (V c main_v10) (V c main_arg3)) := by
  show (cfg0.win 3).cut (grid0.coords t) ((dat0 V c).after 3 t) = _
  rw [after0_3]
  unfold out0_3
  rw [View.canon_unit_zero zero_off2]
  simp only [View.ld_unit_zero (S := S8000x18) zero_off2, View.ld_unit_zero (S := S8000x1) zero_off2,
    View.ld_unit_zero (S := S18x18) zero_off2]
  obtain ⟨e0, e1, e2, e3, e4, e5, e6⟩ := idx_facts0 t
  funext j
  refine tile1_eq _ _ _ _ _ _ j _ (win0_3.index t (0 : Fin 2) * 8000) ?_ ?_ ?_ ?_ ?_
  · show win0_3.index t (0 : Fin 2) * 8000 + 1 * (j 0).val = win0_3.index t (0 : Fin 2) * 8000 + (j 0).val
    omega
  · show win0_3.index t (1 : Fin 2) * 18 + 1 * (j 1).val = (j 1).val
    omega
  · intro y' i' hr hc
    show V c main_arg0 (((cfg0.win 0).blk t).view.emb y') = V c main_arg0 i'
    refine congrArg (V c main_arg0) (funext fun a => Fin.ext ?_)
    match a with
    | ⟨0, _⟩ => show win0_0.index t (0 : Fin 2) * 8000 + 1 * (y' 0).val = (i' 0).val; omega
    | ⟨1, _⟩ => show win0_0.index t (1 : Fin 2) * 18 + 1 * (y' 1).val = (i' 1).val; omega
  · intro y' i' hr
    show V c main_v10 (((cfg0.win 1).blk t).view.emb y') = V c main_v10 i'
    refine congrArg (V c main_v10) (funext fun a => Fin.ext ?_)
    match a with
    | ⟨0, _⟩ => show win0_1.index t (0 : Fin 2) * 8000 + 1 * (y' 0).val = (i' 0).val; omega
    | ⟨1, _⟩ =>
      show win0_1.index t (1 : Fin 2) * 1 + 1 * (y' 1).val = (i' 1).val
      have h1 : (y' 1).val < 1 := (y' 1).isLt
      have h2 : (i' 1).val < 1 := (i' 1).isLt
      omega
  · funext y'
    show V c main_arg3 (((cfg0.win 2).blk t).view.emb y') = V c main_arg3 y'
    refine congrArg (V c main_arg3) (funext fun a => Fin.ext ?_)
    match a with
    | ⟨0, _⟩ => show win0_2.index t (0 : Fin 2) * 18 + 1 * (y' 0).val = (y' 0).val; omega
    | ⟨1, _⟩ => show win0_2.index t (1 : Fin 2) * 18 + 1 * (y' 1).val = (y' 1).val; omega

/-- An index of the result array is in point `t`'s block iff each coordinate is in the block's range. -/
theorem mem_blk0 (t : Fin cfg0.N) (i : S200000x18.Idx) :
    i ∈ ((cfg0.win 3).blk t).view.set ↔ ∀ a : Fin 2, win0_3.index t a * S8000x18.size a ≤ (i a).val
      ∧ (i a).val < win0_3.index t a * S8000x18.size a + S8000x18.size a := by
  show i ∈ ((View.whole main_v13).slice (win0_3.rect t)).set ↔ _
  rw [View.set_slice_whole, Rect.mem_set_unit]
  exact Iff.rfl

/-- The blocks tile the array: row `r` is in the block of the point at block row `r / 8000`. -/
theorem cover0 (i : S200000x18.Idx) :
    ∃ t : Fin cfg0.N, (cfg0.win 3).flush t = true ∧ i ∈ ((cfg0.win 3).blk t).view.set := by
  have hi0 : (i 0).val < 200000 := (i 0).isLt
  have hi1 : (i 1).val < 18 := (i 1).isLt
  obtain ⟨t, ht⟩ := idx_onto0 ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 8000 ≤ (i 0).val ∧ (i 0).val < win0_3.index t (0 : Fin 2) * 8000 + 8000
    omega
  | ⟨1, _⟩ =>
    show win0_3.index t (1 : Fin 2) * 18 ≤ (i 1).val ∧ (i 1).val < win0_3.index t (1 : Fin 2) * 18 + 18
    omega

/-- The result array after the first region is `proj` of the arrays the region found. -/
theorem region0_value (c : Dev nD) :
    (dat0 V c).arrAt 3 cfg0.N = proj (R := 200000) (V c main_arg0) (V c main_v10) (V c main_arg3) :=
  (dat0 V c).arrAt_eq_of_cover 3 _ (fun t _ => flushed_proj V c t) cover0

end Cert.GraphConv

end
-- ==== Proof.LibConcatCols.lean ====
/-
  Two matrices with the same rows set side by side: an `[R, a]` and an `[R, b]` matrix concatenated along the columns
  into `[R, c]`, read at `(p, k)`: the first matrix at `(p, k)` when `k < a`, the second at `(p, k - a)` otherwise.
  General over the extents and the element type.
-/
import Idealize.ShloMosaic.Lib.Pipeline.Value
import Idealize.ShloMosaic.Lib.ValueIdx

noncomputable section

namespace Cert.LibConcatCols

open Idealize.ShloMosaic Idealize.ShloMosaic.ValueIdx

variable {α : Type} {R a b c : ℕ}

/-- A column of the joined matrix that falls in the first piece. -/
theorem concat_cols_left (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ (1 : Fin 2)) (p : Fin R) (k : Fin c)
    (hk : k.val < a) :
    concatenate ⟨2, ![R, c]⟩ (1 : Fin 2) [⟨⟨2, ![R, a]⟩, x₁⟩, ⟨⟨2, ![R, b]⟩, x₂⟩] h (ix2 p k) = x₁ (ix2 p ⟨k.val, hk⟩) :=
  concatenate_pair_apply_left (1 : Fin 2) x₁ x₂ h (ix2 p k) rfl (ix2 p ⟨k.val, hk⟩) (fun d => by
    match d with
    | ⟨0, _⟩ => rfl
    | ⟨1, _⟩ => rfl)

/-- A column of the joined matrix that falls in the second piece. -/
theorem concat_cols_right (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ (1 : Fin 2)) (p : Fin R) (k : Fin c)
    (hk : a ≤ k.val) (hkb : k.val - a < b) :
    concatenate ⟨2, ![R, c]⟩ (1 : Fin 2) [⟨⟨2, ![R, a]⟩, x₁⟩, ⟨⟨2, ![R, b]⟩, x₂⟩] h (ix2 p k)
      = x₂ (ix2 p ⟨k.val - a, hkb⟩) :=
  concatenate_pair_apply_right (1 : Fin 2) x₁ x₂ h (ix2 p k) rfl rfl (ix2 p ⟨k.val - a, hkb⟩)
    (fun d hd => by
      match d with
      | ⟨0, _⟩ => rfl
      | ⟨1, _⟩ => exact absurd rfl hd)
    (by show k.val - a + a = k.val; omega)

end Cert.LibConcatCols

end
-- ==== Proof.Stage2Body.lean ====
/-
  What the second kernel's body computes from its eight blocks, entry by entry, for a tile of 5000 nodes: the linear
  branch (the tile's feature rows through an 18 × 18 matrix plus a bias row), the convolution branch (the summed
  messages times the node's destination normalisation plus a bias row, rectified), the two set side by side into 36
  columns, rectified, through the 36 × 2 classifier plus its bias row.  Changes of format are the identity on the
  extended reals and each product into the zero accumulator is the plain sum over the contracted index, so the entry
  is `outAt` of the tile.
-/
import proofs.«101954_j27642409517487_2_alg».proof.Proof.Gen.KernelIdeal.Skeleton
import proofs.«101954_j27642409517487_2_alg».proof.Proof.Spec
import proofs.«101954_j27642409517487_2_alg».proof.Proof.LibPlainMatmul
import proofs.«101954_j27642409517487_2_alg».proof.Proof.LibKeepdims
import proofs.«101954_j27642409517487_2_alg».proof.Proof.LibConcatCols
import Idealize.ShloMosaic.Lib.ValueLayout

noncomputable section

open scoped BigOperators

namespace Cert.GraphConv

open Idealize.ShloMosaic Idealize.ShloMosaic.ValueIdx Cert.KernelIdeal Cert.KernelIdeal.Gen

/-- A bias vector cast to a row and repeated down the tile reads, at `(p, g)`, the vector at `g`. -/
theorem biasRow_at {Rr n : ℕ} (v : (⟨1, ![n]⟩ : Shape).Idx → EReal) (hc : (⟨1, ![n]⟩ : Shape).ShapeCasts ⟨2, ![1, n]⟩)
    (hb : (⟨2, ![1, n]⟩ : Shape).Broadcasts ⟨2, ![Rr, n]⟩) (p : Fin Rr) (g : Fin n) :
    broadcastTo ⟨2, ![Rr, n]⟩ (shapeCast ⟨2, ![1, n]⟩ v hc) hb (ix2 p g) = v (ix1 g) :=
  (broadcastTo_1b_ab_apply _ hb p g).trans (shapeCast_a_1a_apply v hc (0 : Fin 1) g)

/-- The linear branch of the tile at `(p, g)`. -/
theorem lin_tile_at (v0 : Vec Ideal S5000x18 .f32) (v14 : Vec Ideal S18x18 .f32) (v17 : Vec Ideal S18 .f32)
    (p : Fin 5000) (g : Fin 18) :
    addf (matmul dot_S5000x18_S18x18_S5000x18_1_0_0_1_n_n none (truncf .bf16 v0 bitsLt_bf16_f32)
        (truncf .bf16 v14 bitsLt_bf16_f32) (constant (F := Ideal) S5000x18 .f32 0x00000000#32))
      (broadcastTo S5000x18 (shapeCast S1x18 v17 shapeCasts_S18_S1x18) broadcasts_S1x18_S5000x18) (ix2 p g)
      = linAt (R := 5000) v0 v14 v17 p g := by
  refine (addf_apply _ _ (ix2 p g)).trans ?_
  unfold linAt
  refine congrArg₂ (· + ·) ?_ ?_
  · exact Cert.LibPlainMatmul.matmul_zero_apply (a := 5000) (n := 18) (b := 18) none _ _ p g
  · exact biasRow_at (Rr := 5000) (n := 18) v17 _ _ p g

/-- The convolution branch of the tile at `(p, g)`. -/
theorem conv_tile_at (v1 : Vec Ideal S5000x18 .f32) (v3 : Vec Ideal S5000x1 .f32) (v7 : Vec Ideal S18 .f32)
    (p : Fin 5000) (g : Fin 18) :
    maximumf (addf (mulf (shapeCast S5000x18 v1 shapeCasts_S5000x18_S5000x18)
          (broadcastTo S5000x18 (shapeCast S5000x1 v3 shapeCasts_S5000x1_S5000x1) broadcasts_S5000x1_S5000x18))
        (broadcastTo S5000x18 (shapeCast S1x18 v7 shapeCasts_S18_S1x18) broadcasts_S1x18_S5000x18))
      (broadcast S5000x18 (Scalar.ofBits (F := Ideal) .f32 0x00000000#32)) (ix2 p g)
      = convAt (R := 5000) v1 v3 v7 p g := by
  refine (maximumf_apply _ _ (ix2 p g)).trans ?_
  unfold convAt
  refine congrArg₂ max ?_ rfl
  refine (addf_apply _ _ (ix2 p g)).trans ?_
  refine congrArg₂ (· + ·) ?_ ?_
  · refine (mulf_apply _ _ (ix2 p g)).trans ?_
    refine congrArg₂ (· * ·) ?_ ?_
    · rw [shapeCast_self]
    · refine (Cert.LibKeepdims.broadcastTo_a1_ab_apply (a := 5000) (b := 18) _ _ p g).trans ?_
      rw [shapeCast_self]
  · exact biasRow_at (Rr := 5000) (n := 18) v7 _ _ p g

/-- The second kernel's stored tile at `(p, q)` is the classifier's result for the tile's row `p`. -/
theorem stage2_at (v0 v1 : Vec Ideal S5000x18 .f32) (v3 : Vec Ideal S5000x1 .f32) (v7 : Vec Ideal S18 .f32)
    (v14 : Vec Ideal S18x18 .f32) (v17 : Vec Ideal S18 .f32) (v25 : Vec Ideal S36x2 .f32) (v28 : Vec Ideal S2 .f32)
    (p : Fin 5000) (q : Fin 2) :
    k1_pay1 (F := Ideal) v0 v1 v3 v7 v14 v17 v25 v28 (ix2 p q)
      = outAt (R := 5000) v0 v1 v3 v7 v14 v17 v25 v28 p q := by
  unfold k1_pay1
  refine (addf_apply _ _ (ix2 p q)).trans ?_
  unfold outAt
  refine congrArg₂ (· + ·) ?_ ?_
  · refine (Cert.LibPlainMatmul.matmul_zero_apply (a := 5000) (n := 36) (b := 2) none _ _ p q).trans ?_
    refine Finset.sum_congr rfl fun k _ => ?_
    refine congrArg (· * v25 (ix2 k q)) ?_
    refine (maximumf_apply _ _ (ix2 p k)).trans ?_
    refine congrArg₂ max ?_ rfl
    unfold catAt
    split
    · rename_i h
      refine (Cert.LibConcatCols.concat_cols_left (R := 5000) (a := 18) (b := 18) (c := 36) _ _ _ p k h).trans ?_
      exact lin_tile_at v0 v14 v17 p ⟨k.val, h⟩
    · rename_i h
      refine (Cert.LibConcatCols.concat_cols_right (R := 5000) (a := 18) (b := 18) (c := 36) _ _ _ p k (by omega)
        (by have := k.isLt; omega)).trans ?_
      exact conv_tile_at v1 v3 v7 p ⟨k.val - 18, by have := k.isLt; omega⟩
  · exact biasRow_at (Rr := 5000) (n := 2) v28 _ _ p q

end Cert.GraphConv

end
-- ==== Proof.Stage2Cover.lean ====
/-
  The second region, as one function of the arrays it finds.  The grid has 40 points; point `t` takes rows
  `5000·t … 5000·t + 4999` of the features, of the summed messages and of the destination normalisation column, the
  whole of the two bias vectors, the two weight matrices and the classifier's bias, and writes the same rows of the
  result.  An entry of `out` reads its own row of the per-node arrays only, so what point `t` writes back is block
  `t` of `out` of the whole arrays; the 40 blocks tile the 200000 rows, so the array ends holding `out`.
-/
import proofs.«101954_j27642409517487_2_alg».proof.Proof.Gen.KernelIdeal.Frame
import proofs.«101954_j27642409517487_2_alg».proof.Proof.Stage2Body

set_option maxRecDepth 16384

noncomputable section

open scoped BigOperators

namespace Cert.GraphConv

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A tile entry against the whole arrays: when the tile's per-node blocks are the arrays' rows from `o` on and the
    other blocks are whole arrays, the body's value at `y` is `out` of the arrays at the index `i` that sits `o`
    rows further down. -/
theorem tile2_eq (x0 x1 : Vec Ideal S5000x18 .f32) (x2 : Vec Ideal S5000x1 .f32) (x3 : Vec Ideal S18 .f32)
    (x4 : Vec Ideal S18x18 .f32) (x5 : Vec Ideal S18 .f32) (x6 : Vec Ideal S36x2 .f32) (x7 : Vec Ideal S2 .f32)
    (A0 A1 : Mat 200000 18) (A2 : Mat 200000 1) (A3 : Vc 18) (A4 : Mat 18 18) (A5 : Vc 18) (A6 : Mat 36 2) (A7 : Vc 2)
    (y : S5000x2.Idx) (i : S200000x2.Idx) (o : ℕ)
    (hi0 : (i 0).val = o + (y 0).val) (hi1 : (i 1).val = (y 1).val)
    (h0 : ∀ (y' : S5000x18.Idx) (i' : S200000x18.Idx), (i' 0).val = o + (y' 0).val → (i' 1).val = (y' 1).val →
      x0 y' = A0 i')
    (h1 : ∀ (y' : S5000x18.Idx) (i' : S200000x18.Idx), (i' 0).val = o + (y' 0).val → (i' 1).val = (y' 1).val →
      x1 y' = A1 i')
    (h2 : ∀ (y' : S5000x1.Idx) (i' : S200000x1.Idx), (i' 0).val = o + (y' 0).val → x2 y' = A2 i')
    (h3 : x3 = A3) (h4 : x4 = A4) (h5 : x5 = A5) (h6 : x6 = A6) (h7 : x7 = A7) :
    k1_pay1 (F := Ideal) x0 x1 x2 x3 x4 x5 x6 x7 y = out (R := 200000) A0 A1 A2 A3 A4 A5 A6 A7 i := by
  subst h3 h4 h5 h6 h7
  obtain ⟨p, q, rfl⟩ : ∃ (p : Fin 5000) (q : Fin 2), y = ix2 p q := ⟨y 0, y 1, eq_ix2 y⟩
  obtain ⟨r, q', rfl⟩ : ∃ (r : Fin 200000) (q' : Fin 2), i = ix2 r q' := ⟨i 0, i 1, eq_ix2 i⟩
  have hq : q' = q := Fin.ext hi1
  subst hq
  have hr : r.val = o + p.val := hi0
  refine (stage2_at x0 x1 x2 x3 x4 x5 x6 x7 p q').trans ?_
  refine (outAt_rows x0 x1 x2 A0 A1 A2 x3 x4 x5 x6 x7 p r (fun k => h0 (ix2 p k) (ix2 r k) hr rfl)
    (fun k => h1 (ix2 p k) (ix2 r k) hr rfl) (h2 (ix2 p 0) (ix2 r 0) hr) q').trans ?_
  exact (out_ix2 A0 A1 A2 x3 x4 x5 x6 x7 r q').symm

variable (V : (c : Dev nD) → (b : Ref sig .tc) → Buf (Elt Ideal) ((c : Thread nD τ).loc b))

theorem zero_offs2 : (![0, 0] : Fin 2 → Nat) = fun _ => 0 := funext fun a => by fin_cases a <;> rfl
theorem zero_offs1 : (![0] : Fin 1 → Nat) = fun _ => 0 := funext fun a => by fin_cases a; rfl

/-- The printed index maps over the 40 points: the row-tiled windows sit at block row `t`, block column 0; every
    other window at its one block. -/
theorem idx_facts1 : ∀ t : Fin cfg1.N, win1_0.index t (0 : Fin 2) = win1_8.index t (0 : Fin 2)
    ∧ win1_1.index t (0 : Fin 2) = win1_8.index t (0 : Fin 2)
    ∧ win1_2.index t (0 : Fin 2) = win1_8.index t (0 : Fin 2)
    ∧ win1_0.index t (1 : Fin 2) = 0 ∧ win1_1.index t (1 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (1 : Fin 2) = 0 :=
  (by decide +kernel : ∀ t : Fin grid1.N, _)

/-- Every block row is some point's. -/
theorem idx_onto1 : ∀ q0 : Fin 40, ∃ t : Fin cfg1.N, win1_8.index t = ![q0.val, 0] :=
  (by decide +kernel : ∀ q0 : Fin 40, ∃ t : Fin grid1.N, win1_8.index t = ![q0.val, 0])

/-- What point `t` writes back is block `t` of `out` of the arrays as the region finds them. -/
theorem flushed_out (c : Dev nD) (t : Fin cfg1.N) :
    (dat1 V c).flushed 8 t = ((cfg1.win 8).blk t).view.read (Elt Ideal)
      (out (R := 200000) (V c main_arg0) (V c main_v23) (V c main_v12) (V c main_arg4) (V c main_arg5) (V c main_arg6)
        (V c main_arg7) (V c main_arg8)) := by
  show (cfg1.win 8).cut (grid1.coords t) ((dat1 V c).after 8 t) = _
  rw [after1_8]
  unfold out1_8
  rw [View.canon_unit_zero zero_offs2]
  simp only [View.ld_unit_zero (S := S5000x18) zero_offs2, View.ld_unit_zero (S := S5000x1) zero_offs2,
    View.ld_unit_zero (S := S18x18) zero_offs2, View.ld_unit_zero (S := S36x2) zero_offs2,
    View.ld_unit_zero (S := S18) zero_offs1, View.ld_unit_zero (S := S2) zero_offs1]
  obtain ⟨e0, e1, e2, e3, e4, e5, e6, e7, e8, e9, e10, e11, e12, e13⟩ := idx_facts1 t
  funext j
  refine tile2_eq _ _ _ _ _ _ _ _ _ _ _ _ _ _ _ _ j _ (win1_8.index t (0 : Fin 2) * 5000) ?_ ?_ ?_ ?_ ?_ ?_ ?_ ?_ ?_ ?_
  · show win1_8.index t (0 : Fin 2) * 5000 + 1 * (j 0).val = win1_8.index t (0 : Fin 2) * 5000 + (j 0).val
    omega
  · show win1_8.index t (1 : Fin 2) * 2 + 1 * (j 1).val = (j 1).val
    omega
  · intro y' i' hr hc
    show V c main_arg0 (((cfg1.win 0).blk t).view.emb y') = V c main_arg0 i'
    refine congrArg (V c main_arg0) (funext fun a => Fin.ext ?_)
    match a with
    | ⟨0, _⟩ => show win1_0.index t (0 : Fin 2) * 5000 + 1 * (y' 0).val = (i' 0).val; omega
    | ⟨1, _⟩ => show win1_0.index t (1 : Fin 2) * 18 + 1 * (y' 1).val = (i' 1).val; omega
  · intro y' i' hr hc
    show V c main_v23 (((cfg1.win 1).blk t).view.emb y') = V c main_v23 i'
    refine congrArg (V c main_v23) (funext fun a => Fin.ext ?_)
    match a with
    | ⟨0, _⟩ => show win1_1.index t (0 : Fin 2) * 5000 + 1 * (y' 0).val = (i' 0).val; omega
    | ⟨1, _⟩ => show win1_1.index t (1 : Fin 2) * 18 + 1 * (y' 1).val = (i' 1).val; omega
  · intro y' i' hr
    show V c main_v12 (((cfg1.win 2).blk t).view.emb y') = V c main_v12 i'
    refine congrArg (V c main_v12) (funext fun a => Fin.ext ?_)
    match a with
    | ⟨0, _⟩ => show win1_2.index t (0 : Fin 2) * 5000 + 1 * (y' 0).val = (i' 0).val; omega
    | ⟨1, _⟩ =>
      show win1_2.index t (1 : Fin 2) * 1 + 1 * (y' 1).val = (i' 1).val
      have h1 : (y' 1).val < 1 := (y' 1).isLt
      have h2 : (i' 1).val < 1 := (i' 1).isLt
      omega
  · funext y'
    show V c main_arg4 (((cfg1.win 3).blk t).view.emb y') = V c main_arg4 y'
    refine congrArg (V c main_arg4) (funext fun a => Fin.ext ?_)
    match a with
    | ⟨0, _⟩ => show win1_3.index t (0 : Fin 1) * 18 + 1 * (y' 0).val = (y' 0).val; omega
  · funext y'
    show V c main_arg5 (((cfg1.win 4).blk t).view.emb y') = V c main_arg5 y'
    refine congrArg (V c main_arg5) (funext fun a => Fin.ext ?_)
    match a with
    | ⟨0, _⟩ => show win1_4.index t (0 : Fin 2) * 18 + 1 * (y' 0).val = (y' 0).val; omega
    | ⟨1, _⟩ => show win1_4.index t (1 : Fin 2) * 18 + 1 * (y' 1).val = (y' 1).val; omega
  · funext y'
    show V c main_arg6 (((cfg1.win 5).blk t).view.emb y') = V c main_arg6 y'
    refine congrArg (V c main_arg6) (funext fun a => Fin.ext ?_)
    match a with
    | ⟨0, _⟩ => show win1_5.index t (0 : Fin 1) * 18 + 1 * (y' 0).val = (y' 0).val; omega
  · funext y'
    show V c main_arg7 (((cfg1.win 6).blk t).view.emb y') = V c main_arg7 y'
    refine congrArg (V c main_arg7) (funext fun a => Fin.ext ?_)
    match a with
    | ⟨0, _⟩ => show win1_6.index t (0 : Fin 2) * 36 + 1 * (y' 0).val = (y' 0).val; omega
    | ⟨1, _⟩ => show win1_6.index t (1 : Fin 2) * 2 + 1 * (y' 1).val = (y' 1).val; omega
  · funext y'
    show V c main_arg8 (((cfg1.win 7).blk t).view.emb y') = V c main_arg8 y'
    refine congrArg (V c main_arg8) (funext fun a => Fin.ext ?_)
    match a with
    | ⟨0, _⟩ => show win1_7.index t (0 : Fin 1) * 2 + 1 * (y' 0).val = (y' 0).val; omega

/-- An index of the result array is in point `t`'s block iff each coordinate is in the block's range. -/
theorem mem_blk1 (t : Fin cfg1.N) (i : S200000x2.Idx) :
    i ∈ ((cfg1.win 8).blk t).view.set ↔ ∀ a : Fin 2, win1_8.index t a * S5000x2.size a ≤ (i a).val
      ∧ (i a).val < win1_8.index t a * S5000x2.size a + S5000x2.size a := by
  show i ∈ ((View.whole main_v24).slice (win1_8.rect t)).set ↔ _
  rw [View.set_slice_whole, Rect.mem_set_unit]
  exact Iff.rfl

/-- The blocks tile the array: row `r` is in the block of the point at block row `r / 5000`. -/
theorem cover1 (i : S200000x2.Idx) :
    ∃ t : Fin cfg1.N, (cfg1.win 8).flush t = true ∧ i ∈ ((cfg1.win 8).blk t).view.set := by
  have hi0 : (i 0).val < 200000 := (i 0).isLt
  have hi1 : (i 1).val < 2 := (i 1).isLt
  obtain ⟨t, ht⟩ := idx_onto1 ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk1]
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 2 ≤ (i 1).val ∧ (i 1).val < win1_8.index t (1 : Fin 2) * 2 + 2
    omega

/-- The result array after the second region is `out` of the arrays the region found. -/
theorem region1_value (c : Dev nD) :
    (dat1 V c).arrAt 8 cfg1.N = out (R := 200000) (V c main_arg0) (V c main_v23) (V c main_v12) (V c main_arg4)
      (V c main_arg5) (V c main_arg6) (V c main_arg7) (V c main_arg8) :=
  (dat1 V c).arrAt_eq_of_cover 8 _ (fun t _ => flushed_out V c t) cover1

end Cert.GraphConv

end
-- ==== Proof.RefStages.lean ====
/-
  The reference program, read one stage at a time, is the same two functions.  Its dense steps are host matrix
  products (plain sums over the contracted index on the extended reals), broadcasts of the normalisation columns
  along the features and of the bias vectors down the nodes, maxima against the zero matrix and one concatenation
  along the columns; read at an entry they are `projAt` and `outAt`.  The degree counts, the gather along the edges
  and the sum into the destination nodes are not opened: they stay the terms the program prints.
-/
import proofs.«101954_j27642409517487_2_alg».proof.Proof.Gen.ReferenceIdeal.Read
import proofs.«101954_j27642409517487_2_alg».proof.Proof.Spec
import proofs.«101954_j27642409517487_2_alg».proof.Proof.LibConcatCols

noncomputable section

open scoped BigOperators

namespace Cert.GraphConv

open Idealize.ShloMosaic Idealize.ShloMosaic.ValueIdx Cert.ReferenceIdeal Cert.ReferenceIdeal.Read

variable (x0 : (⟨S200000x18, .f32⟩ : BufTy).Contents (Elt Ideal)) (x1 x2 : (⟨S6400000, .i32⟩ : BufTy).Contents (Elt Ideal))
  (x3 : (⟨S18x18, .f32⟩ : BufTy).Contents (Elt Ideal)) (x4 : (⟨S18, .f32⟩ : BufTy).Contents (Elt Ideal))
  (x5 : (⟨S18x18, .f32⟩ : BufTy).Contents (Elt Ideal)) (x6 : (⟨S18, .f32⟩ : BufTy).Contents (Elt Ideal))
  (x7 : (⟨S36x2, .f32⟩ : BufTy).Contents (Elt Ideal)) (x8 : (⟨S2, .f32⟩ : BufTy).Contents (Elt Ideal))

/-- The reference's projected features are `proj` of the features, its source normalisation column and the weights. -/
theorem ref_proj : val_main_v15 (F := Ideal) x0 x1 x3 = proj (R := 200000) x0 (val_main_v10 (F := Ideal) x1) x3 := by
  refine mat_ext _ _ fun r j => ?_
  rw [proj_ix2, val_main_v15_apply]
  unfold projAt
  refine Finset.sum_congr rfl fun k _ => ?_
  have el : lidx_main_v15 (ix2 r j) k = ix2 r k := funext fun a => Fin.ext (by
    match a with
    | ⟨0, _⟩ => rfl
    | ⟨1, _⟩ => rfl)
  have er : ridx_main_v15 (ix2 r j) k = ix2 k j := funext fun a => Fin.ext (by
    match a with
    | ⟨0, _⟩ => rfl
    | ⟨1, _⟩ => rfl)
  have e13 : idx_main_v13 (ix2 r k) = ix2 r (0 : Fin 1) := funext fun a => Fin.ext (by
    match a with
    | ⟨0, _⟩ => rfl
    | ⟨1, _⟩ => rfl)
  rw [el, er, val_main_v14_apply, val_main_v13_apply, e13]
  rfl

/-- The reference's linear branch at `(r, g)`. -/
theorem ref_lin_at (r : Fin 200000) (g : Fin 18) :
    val_main_v35 (F := Ideal) x0 x5 x6 (ix2 r g) = linAt (R := 200000) x0 x5 x6 r g := by
  rw [val_main_v35_apply, val_main_v32_apply, val_main_v34_apply, val_main_v33_apply]
  unfold linAt
  have e : idx_main_v33 (idx_main_v34 (ix2 r g)) = ix1 g := funext fun a => Fin.ext (by
    match a with
    | ⟨0, _⟩ => rfl)
  rw [e]
  refine congrArg (· + x6 (ix1 g)) (Finset.sum_congr rfl fun k _ => ?_)
  have el : lidx_main_v32 (ix2 r g) k = ix2 r k := funext fun a => Fin.ext (by
    match a with
    | ⟨0, _⟩ => rfl
    | ⟨1, _⟩ => rfl)
  have er : ridx_main_v32 (ix2 r g) k = ix2 k g := funext fun a => Fin.ext (by
    match a with
    | ⟨0, _⟩ => rfl
    | ⟨1, _⟩ => rfl)
  rw [el, er]

/-- The reference's convolution branch at `(r, g)`, over its summed messages and its destination normalisation. -/
theorem ref_conv_at (r : Fin 200000) (g : Fin 18) :
    val_main_v31 (F := Ideal) x0 x1 x2 x3 x4 (ix2 r g)
      = convAt (R := 200000) (val_main_v25 (F := Ideal) x0 x1 x2 x3) (val_main_v12 (F := Ideal) x2) x4 r g := by
  rw [val_main_v31_apply, val_main_v30_apply, val_main_v27_apply, val_main_v26_apply, val_main_v29_apply,
    val_main_v28_apply, val_main_call2_v0_apply, val_main_call2_cst_apply]
  unfold convAt
  have e26 : idx_main_v26 (ix2 r g) = ix2 r (0 : Fin 1) := funext fun a => Fin.ext (by
    match a with
    | ⟨0, _⟩ => rfl
    | ⟨1, _⟩ => rfl)
  have e28 : idx_main_v28 (idx_main_v29 (ix2 r g)) = ix1 g := funext fun a => Fin.ext (by
    match a with
    | ⟨0, _⟩ => rfl)
  rw [e26, e28]
  rfl

/-- The reference's two branches side by side at `(r, k)`. -/
theorem ref_cat_at (r : Fin 200000) (k : Fin 36) :
    val_main_v36 (F := Ideal) x0 x1 x2 x3 x4 x5 x6 (ix2 r k)
      = catAt (R := 200000) x0 (val_main_v25 (F := Ideal) x0 x1 x2 x3) (val_main_v12 (F := Ideal) x2) x4 x5 x6 r k := by
  unfold val_main_v36 catAt
  split
  · rename_i h
    refine (Cert.LibConcatCols.concat_cols_left (R := 200000) (a := 18) (b := 18) (c := 36) _ _ _ r k h).trans ?_
    exact ref_lin_at x0 x5 x6 r ⟨k.val, h⟩
  · rename_i h
    refine (Cert.LibConcatCols.concat_cols_right (R := 200000) (a := 18) (b := 18) (c := 36) _ _ _ r k (by omega)
      (by have := k.isLt; omega)).trans ?_
    exact ref_conv_at x0 x1 x2 x3 x4 r ⟨k.val - 18, by have := k.isLt; omega⟩

/-- The reference's result is `out` of the features, its summed messages, its destination normalisation column and
    the parameters. -/
theorem ref_out : val_main_v41 (F := Ideal) x0 x1 x2 x3 x4 x5 x6 x7 x8
    = out (R := 200000) x0 (val_main_v25 (F := Ideal) x0 x1 x2 x3) (val_main_v12 (F := Ideal) x2) x4 x5 x6 x7 x8 := by
  refine mat_ext _ _ fun r j => ?_
  rw [out_ix2, val_main_v41_apply, val_main_v38_apply, val_main_v40_apply, val_main_v39_apply]
  unfold outAt
  have e : idx_main_v39 (idx_main_v40 (ix2 r j)) = ix1 j := funext fun a => Fin.ext (by
    match a with
    | ⟨0, _⟩ => rfl)
  rw [e]
  refine congrArg (· + x8 (ix1 j)) (Finset.sum_congr rfl fun k _ => ?_)
  have el : lidx_main_v38 (ix2 r j) k = ix2 r k := funext fun a => Fin.ext (by
    match a with
    | ⟨0, _⟩ => rfl
    | ⟨1, _⟩ => rfl)
  have er : ridx_main_v38 (ix2 r j) k = ix2 k j := funext fun a => Fin.ext (by
    match a with
    | ⟨0, _⟩ => rfl
    | ⟨1, _⟩ => rfl)
  rw [el, er, val_main_v37_apply, ref_cat_at, val_main_call3_v0_apply, val_main_call3_cst_apply]
  rfl

/-! ## The whole result as one function of the nine arguments -/

/-- The messages summed into their destination nodes, as a function of the projected features and the two edge
    arrays: the rows the source indices name (negative ones counted from the end) are gathered, and each is added
    into the row its destination index names, from zero.  Kept as the program spells it. -/
def gatherSum (h : (⟨S200000x18, .f32⟩ : BufTy).Contents (Elt Ideal))
    (e1 e2 : (⟨S6400000, .i32⟩ : BufTy).Contents (Elt Ideal)) : (⟨S200000x18, .f32⟩ : BufTy).Contents (Elt Ideal) :=
  Host.scatterAdd (F := Ideal) (φ := .f32) scatter_S200000x18_S6400000x1_S6400000x18_1_0_0_1 (val_main_v23 (F := Ideal))
    (val_main_v24 (F := Ideal) e2)
    (Host.gather gather_S200000x18_S6400000x1_S6400000x18_1_0_n_n_0_1_118 h (val_main_v21 (F := Ideal) e1))

/-- The classifier's result as a function of the arguments: project, gather and sum along the edges, classify. -/
def result (a0 : (⟨S200000x18, .f32⟩ : BufTy).Contents (Elt Ideal)) (a1 a2 : (⟨S6400000, .i32⟩ : BufTy).Contents (Elt Ideal))
    (a3 : (⟨S18x18, .f32⟩ : BufTy).Contents (Elt Ideal)) (a4 : (⟨S18, .f32⟩ : BufTy).Contents (Elt Ideal))
    (a5 : (⟨S18x18, .f32⟩ : BufTy).Contents (Elt Ideal)) (a6 : (⟨S18, .f32⟩ : BufTy).Contents (Elt Ideal))
    (a7 : (⟨S36x2, .f32⟩ : BufTy).Contents (Elt Ideal)) (a8 : (⟨S2, .f32⟩ : BufTy).Contents (Elt Ideal)) :
    (⟨S200000x2, .f32⟩ : BufTy).Contents (Elt Ideal) :=
  out (R := 200000) a0 (gatherSum (proj (R := 200000) a0 (val_main_v10 (F := Ideal) a1) a3) a1 a2)
    (val_main_v12 (F := Ideal) a2) a4 a5 a6 a7 a8

/-- The reference's summed messages are `gatherSum` of its projected features. -/
theorem ref_gatherSum : val_main_v25 (F := Ideal) x0 x1 x2 x3 = gatherSum (val_main_v15 (F := Ideal) x0 x1 x3) x1 x2 := rfl

/-- The reference computes `result`. -/
theorem ref_value : val_main_v41 (F := Ideal) x0 x1 x2 x3 x4 x5 x6 x7 x8 = result x0 x1 x2 x3 x4 x5 x6 x7 x8 := by
  rw [ref_out, ref_gatherSum, ref_proj]
  rfl

end Cert.GraphConv

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.KernelFold.lean ====
/-
  The kernel program's buffers, followed through @main.  Before the first region the host counts each node's
  outgoing and incoming edges, clips the counts from below and takes inverse square roots: the two normalisation
  columns, which are the reference's own terms of the same edge arrays.  The first region leaves `proj` of the
  features, the source column and the weights.  Between the regions the host gathers the projected rows along the
  edges and sums them into their destination nodes (`gatherSum`).  The second region leaves `out`.  No operation
  and no region writes an argument.  Together: the result buffer ends holding `result` of the nine arguments.
-/
import proofs.«101954_j27642409517487_2_alg».proof.Proof.Stage1Cover
import proofs.«101954_j27642409517487_2_alg».proof.Proof.Stage2Cover
import proofs.«101954_j27642409517487_2_alg».proof.Proof.RefStages
import proofs.«101954_j27642409517487_2_alg».proof.Proof.LibTypedRef

set_option maxRecDepth 16384

noncomputable section

namespace Cert.GraphConv

open Idealize.ShloMosaic Idealize.ShloMosaic.TcCoe Idealize.SL.Sem Idealize.ShloMosaic.StableHlo
open Cert.KernelIdeal Cert.KernelIdeal.Gen
open Cert.ReferenceIdeal.Read (val_main_cst val_main_v0 val_main_cst_0 val_main_v1 val_main_v2 val_main_v3 val_main_cst_1
  val_main_call0_v0 val_main_call0_v1 val_main_v4 val_main_cst_2 val_main_v5 val_main_v6 val_main_v7 val_main_cst_3
  val_main_call1_v0 val_main_call1_v1 val_main_v8 val_main_v9 val_main_v10 val_main_v11 val_main_v12 val_main_c
  val_main_v16 val_main_v17 val_main_c_4 val_main_v18 val_main_v19 val_main_v20 val_main_v21 val_main_cst_5 val_main_v23
  val_main_v24)

/-! ## Contents moved into and out of the buffers of the two clipping calls: the identity -/

theorem toBuf_v4 (v : (⟨S200000, .f32⟩ : BufTy).Contents (Elt Ideal)) :
    (TRef.of main_v4 : TRef sig ⟨S200000, .f32⟩).toBuf v = v := rfl
theorem toBuf_v8 (v : (⟨S200000, .f32⟩ : BufTy).Contents (Elt Ideal)) :
    (TRef.of main_v8 : TRef sig ⟨S200000, .f32⟩).toBuf v = v := rfl
theorem ofBuf_v3 (v : (⟨S200000, .f32⟩ : BufTy).Contents (Elt Ideal)) :
    (TRef.of main_v3 : TRef sig ⟨S200000, .f32⟩).ofBuf v = v := rfl
theorem ofBuf_v7 (v : (⟨S200000, .f32⟩ : BufTy).Contents (Elt Ideal)) :
    (TRef.of main_v7 : TRef sig ⟨S200000, .f32⟩).ofBuf v = v := rfl
theorem ofBuf_cst_1 (v : (⟨S_, .f32⟩ : BufTy).Contents (Elt Ideal)) :
    (TRef.of main_cst_1 : TRef sig ⟨S_, .f32⟩).ofBuf v = v := rfl
theorem ofBuf_cst_3 (v : (⟨S_, .f32⟩ : BufTy).Contents (Elt Ideal)) :
    (TRef.of main_cst_3 : TRef sig ⟨S_, .f32⟩).ofBuf v = v := rfl

variable (m : (ℓ : Loc nD τ sig) → Buf (Elt Ideal) ℓ) (ρ : Dev nD → PrngReg) (c : Dev nD)

/-! ## At the first region's entry -/

/-- The features are as launched when the first region is entered. -/
theorem entry0_arg0 : W5 m ρ c (Proc.devRef .tc main_arg0) = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  after_results

/-- The source indices are as launched when the first region is entered. -/
theorem entry0_arg1 : W5 m ρ c (Proc.devRef .tc main_arg1) = m ((c : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  after_results

/-- The destination indices are as launched when the first region is entered. -/
theorem entry0_arg2 : W5 m ρ c (Proc.devRef .tc main_arg2) = m ((c : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  after_results

/-- The projection weights are as launched when the first region is entered. -/
theorem entry0_arg3 : W5 m ρ c (Proc.devRef .tc main_arg3) = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  after_results

/-- The convolution bias are as launched when the first region is entered. -/
theorem entry0_arg4 : W5 m ρ c (Proc.devRef .tc main_arg4) = m ((c : Thread nD τ).loc main_arg4) := by
  show StableHlo.after hostOps0_4 (StableHlo.after hostOps0_3 (StableHlo.after hostOps0_2 (StableHlo.after hostOps0_1
    (StableHlo.after hostOps0 (W0 m ρ c))))) (Proc.devRef .tc main_arg4) = _
  after_results

/-- The linear weights are as launched when the first region is entered. -/
theorem entry0_arg5 : W5 m ρ c (Proc.devRef .tc main_arg5) = m ((c : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  after_results

/-- The linear bias are as launched when the first region is entered. -/
theorem entry0_arg6 : W5 m ρ c (Proc.devRef .tc main_arg6) = m ((c : Thread nD τ).loc main_arg6) := by
  show StableHlo.after hostOps0_4 (StableHlo.after hostOps0_3 (StableHlo.after hostOps0_2 (StableHlo.after hostOps0_1
    (StableHlo.after hostOps0 (W0 m ρ c))))) (Proc.devRef .tc main_arg6) = _
  after_results

/-- The classifier weights are as launched when the first region is entered. -/
theorem entry0_arg7 : W5 m ρ c (Proc.devRef .tc main_arg7) = m ((c : Thread nD τ).loc main_arg7) := by
  show StableHlo.after hostOps0_4 (StableHlo.after hostOps0_3 (StableHlo.after hostOps0_2 (StableHlo.after hostOps0_1
    (StableHlo.after hostOps0 (W0 m ρ c))))) (Proc.devRef .tc main_arg7) = _
  after_results

/-- The classifier bias are as launched when the first region is entered. -/
theorem entry0_arg8 : W5 m ρ c (Proc.devRef .tc main_arg8) = m ((c : Thread nD τ).loc main_arg8) := by
  show StableHlo.after hostOps0_4 (StableHlo.after hostOps0_3 (StableHlo.after hostOps0_2 (StableHlo.after hostOps0_1
    (StableHlo.after hostOps0 (W0 m ρ c))))) (Proc.devRef .tc main_arg8) = _
  after_results

/-- The source normalisation column at the first region's entry is the reference's term of the source indices. -/
theorem entry0_v10 : W5 m ρ c (Proc.devRef .tc main_v10)
    = val_main_v10 (F := Ideal) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v10) = _
  after_results
  simp only [Cert.LibTypedRef.ofBuf_toBuf]
  rw [toBuf_v4, ofBuf_v3, ofBuf_cst_1]
  unfold val_main_v10 val_main_v9 val_main_v4 val_main_call0_v1 val_main_call0_v0 val_main_cst_1 val_main_v3 val_main_v1
    val_main_cst_0 val_main_v2 val_main_v0 val_main_cst
  rfl

/-- The destination normalisation column at the first region's entry is the reference's term of the destination
    indices. -/
theorem entry0_v12 : W5 m ρ c (Proc.devRef .tc main_v12)
    = val_main_v12 (F := Ideal) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v12) = _
  after_results
  simp only [Cert.LibTypedRef.ofBuf_toBuf]
  rw [toBuf_v8, ofBuf_v7, ofBuf_cst_3]
  unfold val_main_v12 val_main_v11 val_main_v8 val_main_call1_v1 val_main_call1_v0 val_main_cst_3 val_main_v7 val_main_v5
    val_main_cst_2 val_main_v6 val_main_v0 val_main_cst
  rfl

/-! ## At the first region's exit -/

/-- The projected features the first region leaves. -/
theorem exit0_v13 : W6 m ρ c (Proc.devRef .tc main_v13)
    = proj (R := 200000) (m ((c : Thread nD τ).loc main_arg0))
        (val_main_v10 (F := Ideal) (m ((c : Thread nD τ).loc main_arg1))) (m ((c : Thread nD τ).loc main_arg3)) := by
  refine (W6_arr m ρ c 3).trans ((region0_value (V5 m ρ) c).trans ?_)
  rw [show V5 m ρ c main_arg0 = m ((c : Thread nD τ).loc main_arg0) from entry0_arg0 m ρ c,
    show V5 m ρ c main_v10 = val_main_v10 (F := Ideal) (m ((c : Thread nD τ).loc main_arg1)) from entry0_v10 m ρ c,
    show V5 m ρ c main_arg3 = m ((c : Thread nD τ).loc main_arg3) from entry0_arg3 m ρ c]

/-- The features, an input window of the first region, leave it as they entered. -/
theorem exit0_arg0 : W6 m ρ c (Proc.devRef .tc main_arg0) = m ((c : Thread nD τ).loc main_arg0) :=
  ((W6_arr m ρ c 0).trans (((dat0 (V5 m ρ) c).arrAt_in 0 rfl _).trans (A_eq0 (V5 m ρ) c 0))).trans (entry0_arg0 m ρ c)

/-- The source indices are no window of the first region. -/
theorem exit0_arg1 : W6 m ρ c (Proc.devRef .tc main_arg1) = m ((c : Thread nD τ).loc main_arg1) :=
  (W6_of_ne m ρ c main_arg1 (by decide)).trans (entry0_arg1 m ρ c)

/-- The destination indices are no window of the first region. -/
theorem exit0_arg2 : W6 m ρ c (Proc.devRef .tc main_arg2) = m ((c : Thread nD τ).loc main_arg2) :=
  (W6_of_ne m ρ c main_arg2 (by decide)).trans (entry0_arg2 m ρ c)

/-- The convolution bias are no window of the first region. -/
theorem exit0_arg4 : W6 m ρ c (Proc.devRef .tc main_arg4) = m ((c : Thread nD τ).loc main_arg4) :=
  (W6_of_ne m ρ c main_arg4 (by decide)).trans (entry0_arg4 m ρ c)

/-- The linear weights are no window of the first region. -/
theorem exit0_arg5 : W6 m ρ c (Proc.devRef .tc main_arg5) = m ((c : Thread nD τ).loc main_arg5) :=
  (W6_of_ne m ρ c main_arg5 (by decide)).trans (entry0_arg5 m ρ c)

/-- The linear bias are no window of the first region. -/
theorem exit0_arg6 : W6 m ρ c (Proc.devRef .tc main_arg6) = m ((c : Thread nD τ).loc main_arg6) :=
  (W6_of_ne m ρ c main_arg6 (by decide)).trans (entry0_arg6 m ρ c)

/-- The classifier weights are no window of the first region. -/
theorem exit0_arg7 : W6 m ρ c (Proc.devRef .tc main_arg7) = m ((c : Thread nD τ).loc main_arg7) :=
  (W6_of_ne m ρ c main_arg7 (by decide)).trans (entry0_arg7 m ρ c)

/-- The classifier bias are no window of the first region. -/
theorem exit0_arg8 : W6 m ρ c (Proc.devRef .tc main_arg8) = m ((c : Thread nD τ).loc main_arg8) :=
  (W6_of_ne m ρ c main_arg8 (by decide)).trans (entry0_arg8 m ρ c)

/-- The destination normalisation column is no window of the first region. -/
theorem exit0_v12 : W6 m ρ c (Proc.devRef .tc main_v12)
    = val_main_v12 (F := Ideal) (m ((c : Thread nD τ).loc main_arg2)) :=
  (W6_of_ne m ρ c main_v12 (by decide)).trans (entry0_v12 m ρ c)

/-! ## At the second region's entry -/

/-- The summed messages: the host's gather and sum over what the first region left. -/
theorem entry1_v23 : V7 m ρ c main_v23
    = gatherSum (proj (R := 200000) (m ((c : Thread nD τ).loc main_arg0))
        (val_main_v10 (F := Ideal) (m ((c : Thread nD τ).loc main_arg1))) (m ((c : Thread nD τ).loc main_arg3)))
      (m ((c : Thread nD τ).loc main_arg1)) (m ((c : Thread nD τ).loc main_arg2)) := by
  show StableHlo.after hostOps1 (W6 m ρ c) (Proc.devRef .tc main_v23) = _
  after_results
  rw [exit0_v13, exit0_arg1, exit0_arg2]
  unfold gatherSum val_main_v23 val_main_cst_5 val_main_v24 val_main_v21 val_main_v20 val_main_v17 val_main_v16 val_main_c
    val_main_v19 val_main_v18 val_main_c_4
  rfl

/-- The destination normalisation column is written by no operation between the regions. -/
theorem entry1_v12 : V7 m ρ c main_v12 = val_main_v12 (F := Ideal) (m ((c : Thread nD τ).loc main_arg2)) := by
  show StableHlo.after hostOps1 (W6 m ρ c) (Proc.devRef .tc main_v12) = _
  after_results
  exact exit0_v12 m ρ c

/-- The features are written by no operation between the regions. -/
theorem entry1_arg0 : V7 m ρ c main_arg0 = m ((c : Thread nD τ).loc main_arg0) := by
  show StableHlo.after hostOps1 (W6 m ρ c) (Proc.devRef .tc main_arg0) = _
  after_results
  exact exit0_arg0 m ρ c

/-- The convolution bias are written by no operation between the regions. -/
theorem entry1_arg4 : V7 m ρ c main_arg4 = m ((c : Thread nD τ).loc main_arg4) := by
  show StableHlo.after hostOps1 (W6 m ρ c) (Proc.devRef .tc main_arg4) = _
  after_results
  exact exit0_arg4 m ρ c

/-- The linear weights are written by no operation between the regions. -/
theorem entry1_arg5 : V7 m ρ c main_arg5 = m ((c : Thread nD τ).loc main_arg5) := by
  show StableHlo.after hostOps1 (W6 m ρ c) (Proc.devRef .tc main_arg5) = _
  after_results
  exact exit0_arg5 m ρ c

/-- The linear bias are written by no operation between the regions. -/
theorem entry1_arg6 : V7 m ρ c main_arg6 = m ((c : Thread nD τ).loc main_arg6) := by
  show StableHlo.after hostOps1 (W6 m ρ c) (Proc.devRef .tc main_arg6) = _
  after_results
  exact exit0_arg6 m ρ c

/-- The classifier weights are written by no operation between the regions. -/
theorem entry1_arg7 : V7 m ρ c main_arg7 = m ((c : Thread nD τ).loc main_arg7) := by
  show StableHlo.after hostOps1 (W6 m ρ c) (Proc.devRef .tc main_arg7) = _
  after_results
  exact exit0_arg7 m ρ c

/-- The classifier bias are written by no operation between the regions. -/
theorem entry1_arg8 : V7 m ρ c main_arg8 = m ((c : Thread nD τ).loc main_arg8) := by
  show StableHlo.after hostOps1 (W6 m ρ c) (Proc.devRef .tc main_arg8) = _
  after_results
  exact exit0_arg8 m ρ c

/-! ## At the end -/

/-- The result buffer at the end of @main holds `result` of the nine arguments. -/
theorem kernel_value : W8 m ρ c (Proc.devRef .tc main_v24)
    = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (W8_arr m ρ c 8).trans ((region1_value (V7 m ρ) c).trans ?_)
  rw [entry1_arg0, entry1_v23, entry1_v12, entry1_arg4, entry1_arg5, entry1_arg6, entry1_arg7, entry1_arg8]
  rfl

end Cert.GraphConv

end
-- ==== Proof.lean ====
/-
  The graph-convolution classifier in two row-tiled kernels, against its dense reference, on the extended reals.

  Both programs count each node's outgoing and incoming edges, clip the counts from below, and take inverse square
  roots: two normalisation columns.  Both project the source-normalised features through an 18 × 18 matrix, gather
  the projected rows along the edges and sum them into their destination nodes, and finish with the same per-node
  classifier: the convolution branch (the summed messages, destination-normalised, biased, rectified) beside a
  linear branch of the features, rectified, through a 36 × 2 matrix plus a bias.  The reference does the two dense
  steps on whole arrays; the kernel program does the projection 8000 rows at a time and the classifier 5000 rows at
  a time.  Since every entry of either step reads its own node's row only, tile by tile is the same function; a
  change of float format is the identity on the extended reals and a matrix product is the same finite sum on both
  sides.  The degree counts, the gather and the sum along the edges are the same operations in both programs and are
  never opened: equal values go in, so equal values come out.  No law of arithmetic beyond that is used, and the
  finiteness of the inputs is not needed.

  The frames of the two kernel programs are the generated ones; the reference's is its generated run.  Nothing was
  rewritten when the kernel program was idealized, so nothing is owed there.
-/
import proofs.«101954_j27642409517487_2_alg».proof.Defs
import proofs.«101954_j27642409517487_2_alg».proof.Proof.Gen.Kernel
import proofs.«101954_j27642409517487_2_alg».proof.Proof.Gen.Kernel.Frame
import proofs.«101954_j27642409517487_2_alg».proof.Proof.Gen.KernelIdeal
import proofs.«101954_j27642409517487_2_alg».proof.Proof.Gen.KernelIdeal.Frame
import proofs.«101954_j27642409517487_2_alg».proof.Proof.Gen.ReferenceIdeal
import proofs.«101954_j27642409517487_2_alg».proof.Proof.Gen.ReferenceIdeal.Run
import proofs.«101954_j27642409517487_2_alg».proof.Proof.Gen.ReferenceIdeal.Read
import proofs.«101954_j27642409517487_2_alg».proof.Proof.Gen.Pre_finite_inputs
import proofs.«101954_j27642409517487_2_alg».proof.Proof.KernelRun
import proofs.«101954_j27642409517487_2_alg».proof.Proof.KernelFold
import Idealize.ShloMosaic.Adequacy
import Idealize.ShloMosaic.Init

noncomputable section

namespace Cert.Proof

open Idealize.ShloMosaic Idealize.SL.Sem

/-- The kernel program as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with `result` of them in their result buffers
    and their arguments unchanged. -/
theorem algebraic : Cert.algebraic_KernelIdeal_ReferenceIdeal := by
  intro m ρ m' ρ' _ hagree
  refine ⟨fun c => Cert.GraphConv.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Gen.mem_uc Cert.KernelIdeal.main_v24 (by decide))).trans (Cert.GraphConv.kernel_value m ρ c),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c),
       (h c _ (Cert.KernelIdeal.Gen.mem_uc Cert.KernelIdeal.main_arg4 (by decide))).trans (Cert.KernelIdeal.Gen.W8_main_arg4 m ρ c),
       (h c _ (Cert.KernelIdeal.Gen.mem_uc Cert.KernelIdeal.main_arg5 (by decide))).trans (Cert.KernelIdeal.Gen.W8_main_arg5 m ρ c),
       (h c _ (Cert.KernelIdeal.Gen.mem_uc Cert.KernelIdeal.main_arg6 (by decide))).trans (Cert.KernelIdeal.Gen.W8_main_arg6 m ρ c),
       (h c _ (Cert.KernelIdeal.Gen.mem_uc Cert.KernelIdeal.main_arg7 (by decide))).trans (Cert.KernelIdeal.Gen.W8_main_arg7 m ρ c),
       (h c _ (Cert.KernelIdeal.Gen.mem_uc Cert.KernelIdeal.main_arg8 (by decide))).trans (Cert.KernelIdeal.Gen.W8_main_arg8 m ρ c)⟩)
      (Cert.GraphConv.run_all m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v41_eq, Cert.GraphConv.ref_value, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
